-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x48 : Shape := ⟨2, ![1600000, 48]⟩
abbrev S48x48 : Shape := ⟨2, ![48, 48]⟩
abbrev S1600000 : Shape := ⟨1, ![1600000]⟩
abbrev S_ : Shape := ⟨0, ![]⟩

class Facts : Prop where
  bcast_S_S1600000x48 : S_.BroadcastsInDim S1600000x48 (![] : Fin 0 → Fin S1600000x48.rank)
  reducesTo_S1600000x48_S_d0_1 : S1600000x48.ReducesTo [0, 1] S_
  h_S_ : 0 < S_.numel
  bcast_S_S48x48 : S_.BroadcastsInDim S48x48 (![] : Fin 0 → Fin S48x48.rank)
  reducesTo_S48x48_S_d0_1 : S48x48.ReducesTo [0, 1] S_

variable [Facts]

def fn {F : FTy → Type} [FloatOps F] (main_arg0 : FVec F S1600000x48 .f32) (main_arg1 : FVec F S48x48 .f32) (main_arg2 : IVec S1600000 32) (main_arg3 : IVec S1600000 32) : IVec S_ 1 :=
  let main_v0 : FVec F S1600000x48 .f32 := Host.absf main_arg0
  let main_cst : FVec F S_ .f32 := constant S_ .f32 0x7F800000#32
  let main_v1 : FVec F S1600000x48 .f32 := broadcastInDim S1600000x48 ![] bcast_S_S1600000x48 main_cst
  let main_v2 : IVec S1600000x48 1 := cmpf .olt main_v0 main_v1
  let main_c : IVec S_ 1 := constantI S_ 1 1#1
  let main_v3 : IVec S_ 1 := (fun x v => Host.reduce IntOp.andi x v reducesTo_S1600000x48_S_d0_1 h_S_) main_v2 main_c
  let main_v4 : FVec F S48x48 .f32 := Host.absf main_arg1
  let main_cst_0 : FVec F S_ .f32 := constant S_ .f32 0x7F800000#32
  let main_v5 : FVec F S48x48 .f32 := broadcastInDim S48x48 ![] bcast_S_S48x48 main_cst_0
  let main_v6 : IVec S48x48 1 := cmpf .olt main_v4 main_v5
  let main_c_1 : IVec S_ 1 := constantI S_ 1 1#1
  let main_v7 : IVec S_ 1 := (fun x v => Host.reduce IntOp.andi x v reducesTo_S48x48_S_d0_1 h_S_) main_v6 main_c_1
  let main_v8 : IVec S_ 1 := andi main_v3 main_v7
  main_v8
-- ==== Kernel.lean ====
abbrev S1600000x48 : Shape := ⟨2, ![1600000, 48]⟩
abbrev S48x48 : Shape := ⟨2, ![48, 48]⟩
abbrev S1600000 : Shape := ⟨1, ![1600000]⟩
abbrev S16000x48 : Shape := ⟨2, ![16000, 48]⟩
abbrev S_ : Shape := ⟨0, ![]⟩
abbrev S100000x48 : Shape := ⟨2, ![100000, 48]⟩
abbrev S1600000x1 : Shape := ⟨2, ![1600000, 1]⟩

abbrev nBuf : Space → Nat
  | .hbm => 14
  | .vmem => 5
  | .smem => 0
  | _ => 0

abbrev bufTy : (tb : Table) → Fin (tcTables nBuf tb) → BufTy
  | .hbm, ⟨0, _⟩ => ⟨S1600000x48, .f32⟩
  | .hbm, ⟨1, _⟩ => ⟨S48x48, .f32⟩
  | .hbm, ⟨2, _⟩ => ⟨S1600000, .i32⟩
  | .hbm, ⟨3, _⟩ => ⟨S1600000, .i32⟩
  | .hbm, ⟨4, _⟩ => ⟨S1600000x48, .f32⟩
  | .hbm, ⟨5, _⟩ => ⟨S_, .f32⟩
  | .hbm, ⟨6, _⟩ => ⟨S100000x48, .f32⟩
  | .hbm, ⟨7, _⟩ => ⟨S1600000x1, .i32⟩
  | .hbm, ⟨8, _⟩ => ⟨S100000x48, .f32⟩
  | .hbm, ⟨9, _⟩ => ⟨S_, .f32⟩
  | .hbm, ⟨10, _⟩ => ⟨S100000x48, .f32⟩
  | .hbm, ⟨11, _⟩ => ⟨S1600000x1, .i32⟩
  | .hbm, ⟨12, _⟩ => ⟨S100000x48, .f32⟩
  | .hbm, ⟨13, _⟩ => ⟨S100000x48, .f32⟩
  | .local _ .vmem, ⟨0, _⟩ => ⟨S16000x48, .f32⟩
  | .local _ .vmem, ⟨1, _⟩ => ⟨S16000x48, .f32⟩
  | .local _ .vmem, ⟨2, _⟩ => ⟨S48x48, .f32⟩
  | .local _ .vmem, ⟨3, _⟩ => ⟨S16000x48, .f32⟩
  | .local _ .vmem, ⟨4, _⟩ => ⟨S16000x48, .f32⟩
  | _, _ => ⟨S1600000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S16000x48_S16000x48_0_0 : ∀ a, (![0, 0] : Fin 2 → Nat) a + S16000x48.size a ≤ S16000x48.size a
  h_S16000x48 : 0 < S16000x48.numel
  bitsLt_bf16_f32 : FTy.bits .bf16 < FTy.bits .f32
  inb_S48x48_S48x48_0_0 : ∀ a, (![0, 0] : Fin 2 → Nat) a + S48x48.size a ≤ S48x48.size a
  h_S48x48 : 0 < S48x48.numel
  bcast_S_S100000x48 : S_.BroadcastsInDim S100000x48 (![] : Fin 0 → Fin S100000x48.rank)
  bcast_S1600000_S1600000x1_0 : S1600000.BroadcastsInDim S1600000x1 (![0] : Fin 1 → Fin S1600000x1.rank)
  dot_S16000x48_S48x48_S16000x48_1_0_0_1_n_n_wf : DotDims.WF S16000x48 S48x48 S16000x48 [1] [0] [0] [1] [] []
  scatter_S100000x48_S1600000x1_S1600000x48_1_0_0_1_wf : ScatterDims.WF S100000x48 S1600000x1 S1600000x48 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x48.size a ≤ S1600000x48.size a
  hwx0_0 : ∀ i : grid0.Coords, EltTy.bits .f32 = 32 ∨ (Rect.block (s := S1600000x48) S16000x48.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S48x48.size a ≤ S48x48.size a
  hwx0_1 : ∀ i : grid0.Coords, EltTy.bits .f32 = 32 ∨ (Rect.block (s := S48x48) S48x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x48.size a ≤ S1600000x48.size a
  hwx0_2 : ∀ i : grid0.Coords, EltTy.bits .f32 = 32 ∨ (Rect.block (s := S1600000x48) S16000x48.size (cc0_transform_2 i) (hinb0_2 i)).WholeWords (EltTy.packing .f32)

variable [Facts₀]

def dot_S16000x48_S48x48_S16000x48_1_0_0_1_n_n : DotDims S16000x48 S48x48 S16000x48 where
  lhsContracting := [1]
  rhsContracting := [0]
  lhsNonContracting := [0]
  rhsNonContracting := [1]
  lhsBatch := []
  rhsBatch := []
  wf := dot_S16000x48_S48x48_S16000x48_1_0_0_1_n_n_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf

abbrev win0_0 : Pipeline.Window sig grid0 :=
  Pipeline.Window.ofSpec (Memref.whole main_arg0) S16000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S48x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1600000x48 : Shape := ⟨2, ![1600000, 48]⟩
abbrev S48x48 : Shape := ⟨2, ![48, 48]⟩
abbrev S1600000 : Shape := ⟨1, ![1600000]⟩
abbrev S_ : Shape := ⟨0, ![]⟩
abbrev S100000x48 : Shape := ⟨2, ![100000, 48]⟩
abbrev S1600000x1 : Shape := ⟨2, ![1600000, 1]⟩

abbrev nBuf : Space → Nat
  | .hbm => 14
  | .vmem => 0
  | .smem => 0
  | _ => 0

abbrev bufTy : (tb : Table) → Fin (tcTables nBuf tb) → BufTy
  | .hbm, ⟨0, _⟩ => ⟨S1600000x48, .f32⟩
  | .hbm, ⟨1, _⟩ => ⟨S48x48, .f32⟩
  | .hbm, ⟨2, _⟩ => ⟨S1600000, .i32⟩
  | .hbm, ⟨3, _⟩ => ⟨S1600000, .i32⟩
  | .hbm, ⟨4, _⟩ => ⟨S1600000x48, .f32⟩
  | .hbm, ⟨5, _⟩ => ⟨S_, .f32⟩
  | .hbm, ⟨6, _⟩ => ⟨S100000x48, .f32⟩
  | .hbm, ⟨7, _⟩ => ⟨S1600000x1, .i32⟩
  | .hbm, ⟨8, _⟩ => ⟨S100000x48, .f32⟩
  | .hbm, ⟨9, _⟩ => ⟨S_, .f32⟩
  | .hbm, ⟨10, _⟩ => ⟨S100000x48, .f32⟩
  | .hbm, ⟨11, _⟩ => ⟨S1600000x1, .i32⟩
  | .hbm, ⟨12, _⟩ => ⟨S100000x48, .f32⟩
  | .hbm, ⟨13, _⟩ => ⟨S100000x48, .f32⟩
  | _, _ => ⟨S1600000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S_S100000x48 : S_.BroadcastsInDim S100000x48 (![] : Fin 0 → Fin S100000x48.rank)
  bcast_S1600000_S1600000x1_0 : S1600000.BroadcastsInDim S1600000x1 (![0] : Fin 1 → Fin S1600000x1.rank)
  dot_S1600000x48_S48x48_S1600000x48_1_0_0_1_n_n_wf : DotDims.WF S1600000x48 S48x48 S1600000x48 [1] [0] [0] [1] [] []
  scatter_S100000x48_S1600000x1_S1600000x48_1_0_0_1_wf : ScatterDims.WF S100000x48 S1600000x1 S1600000x48 [1] [0] [0] 1

variable [Facts₀]

def dot_S1600000x48_S48x48_S1600000x48_1_0_0_1_n_n : DotDims S1600000x48 S48x48 S1600000x48 where
  lhsContracting := [1]
  rhsContracting := [0]
  lhsNonContracting := [0]
  rhsNonContracting := [1]
  lhsBatch := []
  rhsBatch := []
  wf := dot_S1600000x48_S48x48_S1600000x48_1_0_0_1_n_n_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf

class Facts : Prop extends Facts₀ where

variable [Facts]
-- ==== Proof.Spec.lean ====
/-
  The mathematics of the certificate, free of either program.

  Edge features are mapped by one linear layer: row `e` of `x` (an edge's 48 features) times the 48 × 48
  matrix `W`, so entry `(e, j)` of the mapped features is `∑ k, x (e, k) * W (k, j)` (`edgeFeat`).
  The node features are then the signed incidence aggregation of the mapped edge features: every edge adds
  its row to the row of its target node and, in a second accumulation from zero, to the row of its source
  node; the result is the first accumulation minus the second (`aggregate`). The aggregation is the same
  expression of the mapped features in both programs, so it is kept closed: the two programs are compared
  on the mapped features alone, entry by entry, where both are the same finite sum of products over the
  extended reals. No law that needs finiteness is used.
-/
import Idealize.ShloMosaic.PureOps.Ideal
import Idealize.ShloMosaic.PureOps.Ideal.Laws
import Idealize.ShloMosaic.Lib.ValueIdx

noncomputable section

namespace Cert.Incidence

open Idealize.ShloMosaic Idealize.ShloMosaic.ValueIdx

/-- The linear layer on `M` rows of 48 features: entry `(e, j)` is `∑ k, x (e, k) * W (k, j)`. -/
def edgeFeat (M : Nat) (x : (⟨2, ![M, 48]⟩ : Shape).Idx → EReal) (W : (⟨2, ![48, 48]⟩ : Shape).Idx → EReal) :
    (⟨2, ![M, 48]⟩ : Shape).Idx → EReal :=
  fun j => ∑ k : Fin 48, x (ix2 (j 0) k) * W (ix2 k (j 1))

/-- The linear layer read at coordinates. -/
theorem edgeFeat_apply (M : Nat) (x : (⟨2, ![M, 48]⟩ : Shape).Idx → EReal) (W : (⟨2, ![48, 48]⟩ : Shape).Idx → EReal)
    (e : Fin M) (j : Fin 48) : edgeFeat M x W (ix2 e j) = ∑ k : Fin 48, x (ix2 e k) * W (ix2 k j) := rfl

/-- The signed incidence aggregation of the mapped edge features `h`: the rows of `h` accumulated from zero at
    the target nodes, minus the rows of `h` accumulated from zero at the source nodes. -/
def aggregate (sc : ScatterDims ⟨2, ![100000, 48]⟩ ⟨2, ![1600000, 1]⟩ ⟨2, ![1600000, 48]⟩)
    (hz : (⟨0, ![]⟩ : Shape).BroadcastsInDim ⟨2, ![100000, 48]⟩ (![] : Fin 0 → Fin 2))
    (hcol : (⟨1, ![1600000]⟩ : Shape).BroadcastsInDim ⟨2, ![1600000, 1]⟩ (![0] : Fin 1 → Fin 2))
    (h : FVec Ideal ⟨2, ![1600000, 48]⟩ .f32) (src tgt : IVec ⟨1, ![1600000]⟩ 32) :
    FVec Ideal ⟨2, ![100000, 48]⟩ .f32 :=
  subf
    (Host.scatterAdd sc (broadcastInDim ⟨2, ![100000, 48]⟩ ![] hz (constant (F := Ideal) ⟨0, ![]⟩ .f32 0x00000000#32))
      (broadcastInDim ⟨2, ![1600000, 1]⟩ ![0] hcol tgt) h)
    (Host.scatterAdd sc (broadcastInDim ⟨2, ![100000, 48]⟩ ![] hz (constant (F := Ideal) ⟨0, ![]⟩ .f32 0x00000000#32))
      (broadcastInDim ⟨2, ![1600000, 1]⟩ ![0] hcol src) h)

end Cert.Incidence

end
-- ==== Proof.LibPlainDot.lean ====
/-
  A plain matrix product read at an index, at the ideal instance.

  The dimension numbers `DotDims.plain M K N` contract the left operand's second axis with the right
  operand's first: an `M × K` matrix by a `K × N` matrix. Over the extended reals both the kernel's
  matrix product into a zero accumulator and the host's `dot_general` are, at the entry `(i, j)`, the sum
  over `k : Fin K` of `lhs (i, k) * rhs (k, j)`. The library states this sum over the contracted SHAPE's
  index type; here it is re-indexed once, for every `M K N`, over `Fin K`, with both operand indices
  written from coordinates. A printed record whose six lists are those of `DotDims.plain` is that record
  (its well-formedness field is a proposition), so the lemmas apply to it after `rw [show d = .plain _ _ _ from rfl]`.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The contraction of a plain product, re-indexed over `Fin K`. -/
theorem sum_eq (lhs : (⟨2, ![M, K]⟩ : Shape).Idx → EReal) (rhs : (⟨2, ![K, N]⟩ : Shape).Idx → EReal)
    (j : (⟨2, ![M, N]⟩ : Shape).Idx) :
    ∑ q : (DotDims.plain M K N).contr.Idx, lhs ((DotDims.plain M K N).lhsIdx j q) * rhs ((DotDims.plain M K N).rhsIdx j q)
      = ∑ k : Fin K, lhs (ix2 (j 0) k) * rhs (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row M K N _ _
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => exact rhs_col M K N _ _)
  exact congrArg₂ (· * ·) (congrArg lhs el) (congrArg rhs er)

variable {M K N}

/-- The kernel's matrix product into a zero accumulator, at `(i, j)`: the sum over `k` of `lhs (i, k) * rhs (k, j)`. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant (F := Ideal) ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_eq M K N lhs rhs (ix2 i j))

/-- The host's `dot_general` of the same operands, at `(i, j)`: the same sum. -/
theorem dotGeneral_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j)
      = ∑ k : Fin K, lhs (ix2 i k) * rhs (ix2 k j) := by
  simp only [Host.dotGeneral]
  exact (Ideal.dotGeneral_apply (DotDims.plain M K N) prec _ lhs rhs (ix2 i j)).trans (sum_eq M K N lhs rhs (ix2 i j))

end Idealize.ShloMosaic.PlainDot

end
-- ==== Proof.KernelBlock.lean ====
/-
  One grid point of the kernel, at the ideal instance.

  Point `t` of the 100-point grid loads rows `16000 t .. 16000 t + 15999` of the edge features `x` and the whole
  48 × 48 matrix `W`, multiplies them into a zero accumulator and stores the product over its output block. Over
  the extended reals the change of float format before the product is the identity, so entry `(p, q)` of the
  stored block is `∑ k, x (16000 t + p, k) * W (k, q)`: a row of the product depends on that row of `x` alone, and the
  block written back at point `t` is block `t` of the whole product `edgeFeat 1600000 x W`.
-/
import proofs.«167256_j49881750176303_2_alg».proof.Proof.Gen.KernelIdeal.Frame
import proofs.«167256_j49881750176303_2_alg».proof.Proof.Spec
import proofs.«167256_j49881750176303_2_alg».proof.Proof.LibPlainDot
import Idealize.ShloMosaic.Lib.Pipeline.Value

noncomputable section

namespace Cert.KernelIdeal.Mapped

open Cert.KernelIdeal Cert.KernelIdeal.Gen Idealize.ShloMosaic Idealize.ShloMosaic.TcCoe Idealize.SL.Sem
open Idealize.ShloMosaic.ValueIdx Cert.Incidence
open Idealize.ShloMosaic.Pipeline (Dat)

variable (m : (ℓ : Loc nD τ sig) → Buf (Elt Ideal) ℓ) (ρ : Dev nD → PrngReg)

/-- The stores and loads of the body are through the whole-block rectangle at zero offsets. -/
theorem offs_zero : (![0, 0] : Fin 2 → Nat) = fun _ => 0 := funext fun a => by fin_cases a <;> rfl

/-- The body's one store: the loaded rows times the loaded weights, entry by entry (the change of float format
    is the identity over the extended reals, and the accumulator starts at zero). -/
theorem pay_eq (x0 : Vec Ideal S16000x48 .f32) (x1 : Vec Ideal S48x48 .f32) :
    k0_pay1 (F := Ideal) x0 x1 = edgeFeat 16000 x0 x1 := by
  funext j
  obtain ⟨p, q, rfl⟩ : ∃ (p : Fin 16000) (q : Fin 48), j = ix2 p q := ⟨j 0, j 1, eq_ix2 j⟩
  unfold k0_pay1
  rw [show dot_S16000x48_S48x48_S16000x48_1_0_0_1_n_n = DotDims.plain 16000 48 48 from rfl]
  exact PlainDot.matmul_zero_apply none _ _ p q

/-- A row of the product of a block of rows is that row of the whole product, when the block's row is the
    array's row and the weights are the same. -/
theorem edgeFeat_block (X : S1600000x48.Idx → EReal) (Wt : S48x48.Idx → EReal)
    (x0 : S16000x48.Idx → EReal) (x1 : S48x48.Idx → EReal) (j : S16000x48.Idx) (i : S1600000x48.Idx)
    (hx : ∀ k : Fin 48, x0 (ix2 (j 0) k) = X (ix2 (i 0) k))
    (hw : ∀ k : Fin 48, x1 (ix2 k (j 1)) = Wt (ix2 k (i 1))) :
    edgeFeat 16000 x0 x1 j = edgeFeat 1600000 X Wt i := by
  unfold edgeFeat
  exact Finset.sum_congr rfl fun k _ => by rw [hx k, hw k]

/-- The printed index maps over the grid: the rows' windows move one block per point, the weights' window stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the argument arrays. -/
theorem flushed_eq (c : Dev nD) (t : Fin cfg0.N) :
    (dats m 0 c).flushed 2 t
      = ((cfg0.win 2).blk t).view.read (Elt Ideal) (edgeFeat 1600000 (V m c main_arg0) (V m c main_arg1)) := by
  show (cfg0.win 2).cut (grid0.coords t) ((dats m 0 c).after 2 t) = _
  rw [after0_2]
  unfold out0_2
  rw [View.canon_unit_zero offs_zero]
  simp only [View.ld_unit_zero (S := S16000x48) offs_zero, View.ld_unit_zero (S := S48x48) offs_zero]
  rw [pay_eq]
  obtain ⟨e0, e1, e2, e3, e4, e5⟩ := idx_facts t
  funext j
  show edgeFeat 16000 (iblk m c 0 t) (iblk m c 1 t) j
    = edgeFeat 1600000 (V m c main_arg0) (V m c main_arg1) (((cfg0.win 2).blk t).view.emb j)
  refine edgeFeat_block (V m c main_arg0) (V m c main_arg1) (iblk m c 0 t) (iblk m c 1 t) j
    (((cfg0.win 2).blk t).view.emb j) (fun k => ?_) (fun k => ?_)
  · show V m c main_arg0 (((cfg0.win 0).blk t).view.emb (ix2 (j 0) k))
      = V m c main_arg0 (ix2 ((((cfg0.win 2).blk t).view.emb j) 0) k)
    refine congrArg _ (funext fun a => Fin.ext ?_)
    match a with
    | ⟨0, _⟩ =>
      show win0_0.index t (0 : Fin 2) * 16000 + 1 * (j 0).val = win0_2.index t (0 : Fin 2) * 16000 + 1 * (j 0).val
      omega
    | ⟨1, _⟩ => show win0_0.index t (1 : Fin 2) * 48 + 1 * k.val = k.val; omega
  · show V m c main_arg1 (((cfg0.win 1).blk t).view.emb (ix2 k (j 1)))
      = V m c main_arg1 (ix2 k ((((cfg0.win 2).blk t).view.emb j) 1))
    refine congrArg _ (funext fun a => Fin.ext ?_)
    match a with
    | ⟨0, _⟩ => show win0_1.index t (0 : Fin 2) * 48 + 1 * k.val = k.val; omega
    | ⟨1, _⟩ =>
      show win0_1.index t (1 : Fin 2) * 48 + 1 * (j 1).val = win0_2.index t (1 : Fin 2) * 48 + 1 * (j 1).val
      omega

end Cert.KernelIdeal.Mapped

end
-- ==== Proof.KernelArray.lean ====
/-
  The kernel's output array after the region: the whole product.

  Point `t` writes back rows `16000 t .. 16000 t + 15999`, all 48 columns; row `r` of the array is therefore written by
  point `r / 16000`, and the 100 blocks tile the 1600000 rows. Every block being the block of one whole-array
  function (the product of the argument arrays), the array ends holding that function.
-/
import proofs.«167256_j49881750176303_2_alg».proof.Proof.KernelBlock

noncomputable section

namespace Cert.KernelIdeal.Mapped

open Cert.KernelIdeal Cert.KernelIdeal.Gen Idealize.ShloMosaic Idealize.ShloMosaic.TcCoe Idealize.SL.Sem
open Idealize.ShloMosaic.ValueIdx Cert.Incidence
open Idealize.ShloMosaic.Pipeline (Dat)

variable (m : (ℓ : Loc nD τ sig) → Buf (Elt Ideal) ℓ) (ρ : Dev nD → PrngReg)

/-- An index of the output array is in point `t`'s block iff each coordinate is in the block's range on its axis. -/
theorem mem_blk (t : Fin cfg0.N) (i : S1600000x48.Idx) :
    i ∈ ((cfg0.win 2).blk t).view.set ↔ ∀ a : Fin 2, win0_2.index t a * S16000x48.size a ≤ (i a).val
      ∧ (i a).val < win0_2.index t a * S16000x48.size a + S16000x48.size a := by
  show i ∈ ((View.whole main_v0).slice (win0_2.rect t)).set ↔ _
  rw [View.set_slice_whole, Rect.mem_set_unit]
  exact Iff.rfl

/-- Row `r` of the output is written back by point `r / 16000`: the blocks tile the array. -/
theorem cover (i : S1600000x48.Idx) :
    ∃ t : Fin cfg0.N, (cfg0.win 2).flush t = true ∧ i ∈ ((cfg0.win 2).blk t).view.set := by
  have hi0 : (i 0).val < 1600000 := (i 0).isLt
  have hi1 : (i 1).val < 48 := (i 1).isLt
  have hN : cfg0.N = 100 := N_0
  obtain ⟨t, ht⟩ : ∃ t : Fin cfg0.N, t.val = (i 0).val / 16000 := ⟨⟨(i 0).val / 16000, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 16000 ≤ (i 0).val ∧ (i 0).val < win0_2.index t (0 : Fin 2) * 16000 + 16000
    omega
  | ⟨1, _⟩ =>
    show win0_2.index t (1 : Fin 2) * 48 ≤ (i 1).val ∧ (i 1).val < win0_2.index t (1 : Fin 2) * 48 + 48
    omega

/-- The output array after the region: the whole product of the argument arrays. -/
theorem final (c : Dev nD) :
    (dats m 0 c).arrAt 2 cfg0.N = edgeFeat 1600000 (V m c main_arg0) (V m c main_arg1) :=
  (dats m 0 c).arrAt_eq_of_cover 2 _ (fun t _ => flushed_eq m c t) cover

end Cert.KernelIdeal.Mapped

end
-- ==== Proof.KernelRun.lean ====
/-
  The kernel's run at the ideal instance.

  After the region the host lines read the region's output array (the whole product `edgeFeat 1600000 x W`), and the
  source and target node words, which no window stages and which are found as launched. Their result is the signed
  incidence aggregation of the product: the same expression `aggregate` the reference ends with.
-/
import proofs.«167256_j49881750176303_2_alg».proof.Proof.KernelArray

noncomputable section

namespace Cert.KernelIdeal.Mapped

open Cert.KernelIdeal Cert.KernelIdeal.Gen Idealize.ShloMosaic Idealize.ShloMosaic.TcCoe Idealize.SL.Sem
open Idealize.ShloMosaic.ValueIdx Cert.Incidence
open Idealize.ShloMosaic.Pipeline (Dat)

variable (m : (ℓ : Loc nD τ sig) → Buf (Elt Ideal) ℓ) (ρ : Dev nD → PrngReg)

/-- What the host lines after the region find in the kernel's output array: the whole product. -/
theorem region_out (c : Dev nD) :
    Pipeline.withArrays (cfgs 0).spec c (V0 m c) (fun w => (dats m 0 c).arrAt w (cfgs 0).N) (Proc.devRef .tc main_v0)
      = edgeFeat 1600000 (m ((c : Thread nD τ).loc main_arg0)) (m ((c : Thread nD τ).loc main_arg1)) :=
  (Pipeline.withArrays_arr spec0 launch0.win.arr_inj c _ _ 2).trans (final m c)

/-- The source and target node words are no array of the region: the host lines find them as launched. -/
theorem region_src (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by decide : ∀ w, Pipeline.arrRef spec0 w ≠ main_arg2)).trans
    (V_main_arg2 m c)
theorem region_tgt (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by decide : ∀ w, Pipeline.arrRef spec0 w ≠ main_arg3)).trans
    (V_main_arg3 m c)

/-- The host lines after the region, run on the product the region left: the aggregation. -/
theorem tail_eq (c : Dev nD) :
    Pipeline.afterTail₀ cfgs (dats m) 0 (V0 m) [hostOps1] c main_v7
      = aggregate scatter_S100000x48_S1600000x1_S1600000x48_1_0_0_1 bcast_S_S100000x48 bcast_S1600000_S1600000x1_0
          (edgeFeat 1600000 (m ((c : Thread nD τ).loc main_arg0)) (m ((c : Thread nD τ).loc main_arg1)))
          (m ((c : Thread nD τ).loc main_arg2)) (m ((c : Thread nD τ).loc main_arg3)) := by
  unfold Pipeline.afterTail₀
  show StableHlo.after hostOps1 _ (Proc.devRef .tc main_v7) = _
  after_results
  rw [region_out m c, region_src m c, region_tgt m c]
  rfl

/-- The kernel's run at the ideal instance: every weakly fair execution terminates with the result array at the
    aggregation of the linear layer of the argument arrays, and the argument arrays unchanged. -/
theorem run : θ_run defs (onTc (τ := τ) (main (F := Ideal))) ⟨m, fun _ => 0, ρ⟩ fun r => ∀ c : Dev nD,
      r.2.mem ((c.tc : Thread nD τ).loc main_v7)
        = aggregate scatter_S100000x48_S1600000x1_S1600000x48_1_0_0_1 bcast_S_S100000x48 bcast_S1600000_S1600000x1_0
            (edgeFeat 1600000 (m ((c : Thread nD τ).loc main_arg0)) (m ((c : Thread nD τ).loc main_arg1)))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v7 (Pipeline.mem_restRefs_of main_v7 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Mapped

end
-- ==== Proof.RefValue.lean ====
/-
  The reference's result as the specification's expression of its arguments.

  The reference computes the mapped edge features with one whole matrix product on the host and then the
  signed incidence aggregation. Entry `(e, j)` of the host product of a 1600000 × 48 matrix by a 48 × 48 matrix is
  the sum over `k` of `x (e, k) * W (k, j)`, which is `edgeFeat`; the aggregation is `aggregate` as written.
-/
import proofs.«167256_j49881750176303_2_alg».proof.Proof.Gen.ReferenceIdeal.Run
import proofs.«167256_j49881750176303_2_alg».proof.Proof.Spec
import proofs.«167256_j49881750176303_2_alg».proof.Proof.LibPlainDot

noncomputable section

namespace Cert.ReferenceIdeal.RefValue

open Cert.ReferenceIdeal Cert.ReferenceIdeal.Gen Idealize.ShloMosaic Idealize.ShloMosaic.ValueIdx Cert.Incidence

/-- The host's whole product is the linear layer, entry by entry. -/
theorem product_eq (x : FVec Ideal S1600000x48 .f32) (W : FVec Ideal S48x48 .f32) :
    Host.dotGeneral dot_S1600000x48_S48x48_S1600000x48_1_0_0_1_n_n none x W = edgeFeat 1600000 x W := by
  funext j
  obtain ⟨e, q, rfl⟩ : ∃ (e : Fin 1600000) (q : Fin 48), j = ix2 e q := ⟨j 0, j 1, eq_ix2 j⟩
  rw [show dot_S1600000x48_S48x48_S1600000x48_1_0_0_1_n_n = DotDims.plain 1600000 48 48 from rfl]
  exact PlainDot.dotGeneral_apply none x W e q

/-- The reference's result: the aggregation of the linear layer of its arguments. -/
theorem result_eq (x : FVec Ideal S1600000x48 .f32) (W : FVec Ideal S48x48 .f32) (src tgt : IVec S1600000 32) :
    subf (Host.scatterAdd scatter_S100000x48_S1600000x1_S1600000x48_1_0_0_1 (broadcastInDim S100000x48 ![] bcast_S_S100000x48 (constant (F := Ideal) S_ .f32 0x00000000#32)) (broadcastInDim S1600000x1 ![0] bcast_S1600000_S1600000x1_0 tgt) (Host.dotGeneral dot_S1600000x48_S48x48_S1600000x48_1_0_0_1_n_n none x W)) (Host.scatterAdd scatter_S100000x48_S1600000x1_S1600000x48_1_0_0_1 (broadcastInDim S100000x48 ![] bcast_S_S100000x48 (constant (F := Ideal) S_ .f32 0x00000000#32)) (broadcastInDim S1600000x1 ![0] bcast_S1600000_S1600000x1_0 src) (Host.dotGeneral dot_S1600000x48_S48x48_S1600000x48_1_0_0_1_n_n none x W))
      = aggregate scatter_S100000x48_S1600000x1_S1600000x48_1_0_0_1 bcast_S_S100000x48 bcast_S1600000_S1600000x1_0 (edgeFeat 1600000 x W) src tgt := by
  rw [product_eq]
  rfl

end Cert.ReferenceIdeal.RefValue

end
-- ==== Proof.lean ====
/-
  The certificate: a linear layer on edge features followed by the signed incidence aggregation onto nodes.

  Both programs compute `h = x · W` for 1600000 edges with 48 features and then
  `segment_sum (h, target) - segment_sum (h, source)` over 100000 nodes. The kernel forms `h` in 100 blocks of 16000
  rows, each block's product taken after a change of float format that is the identity over the extended reals; the
  reference forms `h` with one whole product. Entry `(e, j)` of either is the same finite sum
  `∑ k, x (e, k) * W (k, j)` (Proof/Spec.lean `edgeFeat`; Proof/KernelBlock.lean and Proof/KernelArray.lean for the
  kernel's blocks and their tiling of the rows, Proof/RefValue.lean for the host product). The aggregation is the same
  expression of `h` and the node words in both programs and is never opened (Proof/Spec.lean `aggregate`;
  Proof/KernelRun.lean reads the kernel's host lines after its region). No step uses a law of the extended reals that
  needs finite inputs, so the precondition is never opened. The idealization rewrote no operation, so `preserves`
  has nothing to state. The frames of the two kernel programs are the generated ones; the reference's frame is its
  generated run with the result dropped.
-/
import proofs.«167256_j49881750176303_2_alg».proof.Defs
import proofs.«167256_j49881750176303_2_alg».proof.Proof.Gen.Kernel
import proofs.«167256_j49881750176303_2_alg».proof.Proof.Gen.Kernel.Frame
import proofs.«167256_j49881750176303_2_alg».proof.Proof.Gen.KernelIdeal
import proofs.«167256_j49881750176303_2_alg».proof.Proof.Gen.KernelIdeal.Frame
import proofs.«167256_j49881750176303_2_alg».proof.Proof.Gen.ReferenceIdeal
import proofs.«167256_j49881750176303_2_alg».proof.Proof.Gen.ReferenceIdeal.Run
import proofs.«167256_j49881750176303_2_alg».proof.Proof.Gen.Pre_finite_inputs
import proofs.«167256_j49881750176303_2_alg».proof.Proof.KernelRun
import proofs.«167256_j49881750176303_2_alg».proof.Proof.RefValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the aggregation of the linear layer of the
    arguments: the kernel by its blockwise product and its host lines, the reference by its whole product. -/
theorem algebraic : Cert.algebraic_KernelIdeal_ReferenceIdeal := by
  intro m ρ m' ρ' _ hagree
  refine ⟨_, Cert.KernelIdeal.Mapped.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.ReferenceIdeal.RefValue.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
